-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128 .f32) (main_arg14 : FVec F S128x128 .f32) (main_arg15 : FVec F S10x128 .f32) (main_arg16 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S10x128 .f32 := Host.absf main_arg15
  let main_cst_24 : FVec F S_ .f32 := constant S_ .f32 0x7F800000#32
  let main_v65 : FVec F S10x128 .f32 := broadcastInDim S10x128 ![] bcast_S_S10x128 main_cst_24
  let main_v66 : IVec S10x128 1 := cmpf .olt main_v64 main_v65
  let main_c_25 : IVec S_ 1 := constantI S_ 1 1#1
  let main_v67 : IVec S_ 1 := (fun x v => Host.reduce IntOp.andi x v reducesTo_S10x128_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S10x128 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S10x128 .f32) (main_arg16 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S10x128 .f32) (main_arg16 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S50000x1 : Shape := ⟨2, ![50000, 1]⟩
abbrev S128x1 : Shape := ⟨2, ![128, 1]⟩
abbrev S128x10 : Shape := ⟨2, ![128, 10]⟩
abbrev S1x10 : Shape := ⟨2, ![1, 10]⟩

abbrev nBuf : Space → Nat
  | .hbm => 109
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S10x128, .f32⟩
  | .hbm, ⟨16, _⟩ => ⟨S10, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S50000x128, .f32⟩
  | .hbm, ⟨89, _⟩ => ⟨S_, .f32⟩
  | .hbm, ⟨90, _⟩ => ⟨S50000x1, .f32⟩
  | .hbm, ⟨91, _⟩ => ⟨S_, .f32⟩
  | .hbm, ⟨92, _⟩ => ⟨S128x1, .f32⟩
  | .hbm, ⟨93, _⟩ => ⟨S50000x1, .i32⟩
  | .hbm, ⟨94, _⟩ => ⟨S128x1, .f32⟩
  | .hbm, ⟨95, _⟩ => ⟨S_, .f32⟩
  | .hbm, ⟨96, _⟩ => ⟨S128x128, .f32⟩
  | .hbm, ⟨97, _⟩ => ⟨S50000x1, .i32⟩
  | .hbm, ⟨98, _⟩ => ⟨S128x128, .f32⟩
  | .hbm, ⟨99, _⟩ => ⟨S_, .f32⟩
  | .hbm, ⟨100, _⟩ => ⟨S128x1, .f32⟩
  | .hbm, ⟨101, _⟩ => ⟨S128x1, .f32⟩
  | .hbm, ⟨102, _⟩ => ⟨S128x128, .f32⟩
  | .hbm, ⟨103, _⟩ => ⟨S128x128, .f32⟩
  | .hbm, ⟨104, _⟩ => ⟨S128x10, .f32⟩
  | .hbm, ⟨105, _⟩ => ⟨S128x10, .f32⟩
  | .hbm, ⟨106, _⟩ => ⟨S1x10, .f32⟩
  | .hbm, ⟨107, _⟩ => ⟨S128x10, .f32⟩
  | .hbm, ⟨108, _⟩ => ⟨S128x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_7 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000x1 : S_.BroadcastsInDim S50000x1 (![] : Fin 0 → Fin S50000x1.rank)
  bcast_S_S128x1 : S_.BroadcastsInDim S128x1 (![] : Fin 0 → Fin S128x1.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  transposes_S10x128_S128x10_1_0 : S10x128.Transposes [1, 0] S128x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S128x1_S50000x1_S50000x1_1_0_0_1_wf : ScatterDims.WF S128x1 S50000x1 S50000x1 [1] [0] [0] 1
  scatter_S128x128_S50000x1_S50000x128_1_0_0_1_wf : ScatterDims.WF S128x128 S50000x1 S50000x128 [1] [0] [0] 1
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S128x1 : Shape := ⟨2, ![128, 1]⟩
abbrev S128x10 : Shape := ⟨2, ![128, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S10x128, .f32⟩
  | 16 => ⟨S10, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S128x128, .f32⟩
  | 35 => ⟨S50000x128, .f32⟩
  | 36 => ⟨S1x128, .f32⟩
  | 37 => ⟨S50000x128, .f32⟩
  | 38 => ⟨S50000x128, .f32⟩
  | 39 => ⟨S128x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S128x128, .f32⟩
  | 59 => ⟨S50000x128, .f32⟩
  | 60 => ⟨S1x128, .f32⟩
  | 61 => ⟨S50000x128, .f32⟩
  | 62 => ⟨S50000x128, .f32⟩
  | 63 => ⟨S128x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S128x128, .f32⟩
  | 83 => ⟨S50000x128, .f32⟩
  | 84 => ⟨S1x128, .f32⟩
  | 85 => ⟨S50000x128, .f32⟩
  | 86 => ⟨S50000x128, .f32⟩
  | 87 => ⟨S128x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S128x128, .f32⟩
  | 107 => ⟨S50000x128, .f32⟩
  | 108 => ⟨S1x128, .f32⟩
  | 109 => ⟨S50000x128, .f32⟩
  | 110 => ⟨S50000x128, .f32⟩
  | 111 => ⟨S128x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x1, .f32⟩
  | 119 => ⟨S_, .f32⟩
  | 120 => ⟨S128x1, .f32⟩
  | 121 => ⟨S50000x1, .i32⟩
  | 122 => ⟨S128x1, .f32⟩
  | 123 => ⟨S_, .f32⟩
  | 124 => ⟨S128x128, .f32⟩
  | 125 => ⟨S50000x1, .i32⟩
  | 126 => ⟨S128x128, .f32⟩
  | 127 => ⟨S_, .f32⟩
  | _ => ⟨S50000x128, .f32⟩

abbrev hbmTy0_1 (i : Nat) : BufTy := match i % 128 with
  | 0 => ⟨S128x1, .f32⟩
  | 1 => ⟨S128x1, .f32⟩
  | 2 => ⟨S128x128, .f32⟩
  | 3 => ⟨S128x128, .f32⟩
  | 4 => ⟨S128x10, .f32⟩
  | 5 => ⟨S128x10, .f32⟩
  | 6 => ⟨S1x10, .f32⟩
  | 7 => ⟨S128x10, .f32⟩
  | 8 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call0_cst : Ref sig .tc := ⟨.hbm, 42, rfl⟩
abbrev main_call0_v0 : Ref sig .tc := ⟨.hbm, 43, rfl⟩
abbrev main_v22 : Ref sig .tc := ⟨.hbm, 44, rfl⟩
abbrev main_c_1 : Ref sig .tc := ⟨.hbm, 45, rfl⟩
abbrev main_v23 : Ref sig .tc := ⟨.hbm, 46, rfl⟩
abbrev main_v24 : Ref sig .tc := ⟨.hbm, 47, rfl⟩
abbrev main_c_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call1_cst : Ref sig .tc := ⟨.hbm, 66, rfl⟩
abbrev main_call1_v0 : Ref sig .tc := ⟨.hbm, 67, rfl⟩
abbrev main_v41 : Ref sig .tc := ⟨.hbm, 68, rfl⟩
abbrev main_c_4 : Ref sig .tc := ⟨.hbm, 69, rfl⟩
abbrev main_v42 : Ref sig .tc := ⟨.hbm, 70, rfl⟩
abbrev main_v43 : Ref sig .tc := ⟨.hbm, 71, rfl⟩
abbrev main_c_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_cst : Ref sig .tc := ⟨.hbm, 90, rfl⟩
abbrev main_call2_v0 : Ref sig .tc := ⟨.hbm, 91, rfl⟩
abbrev main_v60 : Ref sig .tc := ⟨.hbm, 92, rfl⟩
abbrev main_c_7 : Ref sig .tc := ⟨.hbm, 93, rfl⟩
abbrev main_v61 : Ref sig .tc := ⟨.hbm, 94, rfl⟩
abbrev main_v62 : Ref sig .tc := ⟨.hbm, 95, rfl⟩
abbrev main_c_8 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_9 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call3_cst : Ref sig .tc := ⟨.hbm, 114, rfl⟩
abbrev main_call3_v0 : Ref sig .tc := ⟨.hbm, 115, rfl⟩
abbrev main_v79 : Ref sig .tc := ⟨.hbm, 116, rfl⟩
abbrev main_cst_10 : Ref sig .tc := ⟨.hbm, 117, rfl⟩
abbrev main_v80 : Ref sig .tc := ⟨.hbm, 118, rfl⟩
abbrev main_cst_11 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_12 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_13 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S_S128x1 : S_.BroadcastsInDim S128x1 (![] : Fin 0 → Fin S128x1.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  transposes_S10x128_S128x10_1_0 : S10x128.Transposes [1, 0] S128x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x1_S50000x1_S50000x1_1_0_0_1_wf : ScatterDims.WF S128x1 S50000x1 S50000x1 [1] [0] [0] 1
  scatter_S128x128_S50000x1_S50000x128_1_0_0_1_wf : ScatterDims.WF S128x128 S50000x1 S50000x128 [1] [0] [0] 1
  dot_S128x128_S128x10_S128x10_1_0_0_1_n_n_wf : DotDims.WF S128x128 S128x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KernelRun.lean ====
/-
  The idealized kernel program's run with its result read.

  The program is four tiled regions among five stretches of host operations.  Every weakly fair execution terminates
  and the memory it ends in holds, at every buffer that is not scoped to a region, the contents of the last segment
  boundary: the fold of the host stretches and of the regions' write-backs from the launch memory.  Reading that
  fact at the result buffer (as the frame reads it at the argument buffers) gives the result as the last boundary's
  contents of that buffer; the later modules evaluate the fold.
-/
import proofs.«165000_j48455821033981_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the argument arrays end as launched. -/
theorem run_result : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.RunValue

end
-- ==== Proof.LibPlainMatmul.lean ====
/-
  A plain matrix product read at one entry, over the extended reals.

  The product of an M×K matrix by a K×N matrix with no batch axis contracts the left operand's columns against the
  right operand's rows.  Added into the all-zero matrix, its entry (p, q) is the plain sum
      Σ_{k < K}  lhs (p, k) · rhs (k, q),
  the sum over the one contraction axis re-indexed by that axis's coordinate.  Nothing of real arithmetic is used
  beyond 0 + x = x, so the statement holds at the infinities as well.

  A one-row matrix laid along every row of an M×N matrix reads, at (p, q), its entry (0, q).

  Together: entry (p, q) of  f (lhs · rhs + row)  applied entrywise, for any scalar function f.
-/
import Idealize.ShloMosaic.Lib.ValueIdx
import Idealize.ShloMosaic.Lib.Pipeline.Value
import Idealize.ShloMosaic.PureOps.Ideal.Laws

noncomputable section

open scoped BigOperators

namespace Idealize.ShloMosaic.PlainMatmul

open Idealize.ShloMosaic Idealize.ShloMosaic.ValueIdx

variable {M K N : Nat}

/-- The dimension numbers of a plain product: the left operand contracts its columns (axis 1), the right operand its
    rows (axis 0); the remaining axes are the result's rows and columns; there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable (D : DotDims ⟨2, ![M, K]⟩ ⟨2, ![K, N]⟩ ⟨2, ![M, N]⟩)

/-- One axis is contracted … -/
theorem contr_rank (hD : IsPlain D) : D.contr.rank = 1 := by
  rw [D.rank_contr, hD.lc]; rfl

/-- … and its extent is the left operand's number of columns. -/
theorem contr_size (hD : IsPlain D) : D.contr.size ⟨0, by rw [contr_rank D hD]; exact Nat.one_pos⟩ = K := by
  have h1 : 0 < D.lhsContracting.length := by rw [hD.lc]; exact Nat.one_pos
  have h2 : D.lhsContracting[0]'h1 = (1 : Fin 2) := List.getElem_of_eq hD.lc h1
  rw [D.size_contr 0 h1, h2]
  rfl

/-- The left operand is read in the result's row … -/
theorem lhsIdx_row (hD : IsPlain D) (j : (⟨2, ![M, N]⟩ : Shape).Idx) (k : D.contr.Idx) : (D.lhsIdx j k 0).val = (j 0).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- … and the right operand in the result's column. -/
theorem rhsIdx_col (hD : IsPlain D) (j : (⟨2, ![M, N]⟩ : Shape).Idx) (k : D.contr.Idx) : (D.rhsIdx j k 1).val = (j 1).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- The contraction position, as a number below the common extent. -/
abbrev contrFin (hD : IsPlain D) : D.contr.Idx ≃ Fin K := contrEquiv1 D K (contr_rank D hD) (contr_size D hD)

/-- At contraction position `k` the left operand is read at (row, k) … -/
theorem lhsIdx_eq (hD : IsPlain D) (p : Fin M) (q : Fin N) (k : Fin K) :
    D.lhsIdx (ix2 p q) ((contrFin D hD).symm k) = ix2 p k := by
  funext a
  apply Fin.ext
  match a with
  | ⟨0, _⟩ => exact lhsIdx_row D hD _ _
  | ⟨1, _⟩ => exact (D.lhsIdx_val_of_single hD.lc _ _).trans (contrEquiv1_symm_val D K _ _ k)

/-- … and the right operand at (k, column). -/
theorem rhsIdx_eq (hD : IsPlain D) (p : Fin M) (q : Fin N) (k : Fin K) :
    D.rhsIdx (ix2 p q) ((contrFin D hD).symm k) = ix2 k q := by
  funext a
  apply Fin.ext
  match a with
  | ⟨0, _⟩ => exact (D.rhsIdx_val_of_single hD.rc _ _).trans (contrEquiv1_symm_val D K _ _ k)
  | ⟨1, _⟩ => exact rhsIdx_col D hD _ _

/-- ENTRY (p, q) OF A PLAIN PRODUCT added into the zero matrix: Σ_k lhs (p, k) · rhs (k, q). -/
theorem matmul_zero_apply (hD : IsPlain D) {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrFin D hD).symm]
  refine Finset.sum_congr rfl fun k _ => ?_
  rw [lhsIdx_eq D hD p q k, rhsIdx_eq D hD p q k]

/-- A one-row matrix laid along every row reads, at (p, q), its entry (0, q). -/
theorem broadcastRow_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) := by
  refine broadcastTo_apply b h (ix2 p q) (ix2 (0 : Fin 1) q) fun a => ?_
  match a with
  | ⟨0, _⟩ => exact (if_pos rfl).symm
  | ⟨1, _⟩ =>
    by_cases hN : N = 1
    · subst hN
      show (q : ℕ) = if (1 : ℕ) = 1 then 0 else (q : ℕ)
      rw [if_pos rfl]; exact Nat.lt_one_iff.mp q.isLt
    · exact (if_neg hN).symm

/-- ENTRY (p, q) of a scalar function applied entrywise to (product + broadcast row). -/
theorem entry_apply (hD : IsPlain D) {φ₁ φ₂ : FTy} (prec : Option ContractPrecision) (f : EReal → EReal)
    (lhs : FVec Ideal ⟨2, ![M, K]⟩ φ₁) (rhs : FVec Ideal ⟨2, ![K, N]⟩ φ₂)
    (b : FVec Ideal ⟨2, ![1, N]⟩ .f32) (h : (⟨2, ![1, N]⟩ : Shape).Broadcasts ⟨2, ![M, N]⟩) (p : Fin M) (q : Fin N) :
    f (FloatOps.matmul D prec lhs rhs (constant (F := Ideal) ⟨2, ![M, N]⟩ .f32 0x00000000#32) (ix2 p q)
        + broadcastTo ⟨2, ![M, N]⟩ b h (ix2 p q))
      = f ((∑ k : Fin K, lhs (ix2 p k) * rhs (ix2 k q)) + b (ix2 (0 : Fin 1) q)) := by
  rw [matmul_zero_apply D hD, broadcastRow_apply]

end Idealize.ShloMosaic.PlainMatmul

end
-- ==== Proof.LayerSpec.lean ====
/-
  One layer of the network, entry by entry, over the extended reals.

  A layer takes the aggregated neighbour features `agg` and the node features `h` (both R×128), two 128×128
  matrices `wT` and `uT` (already transposed: they are multiplied from the right) and a bias row `b`, and returns
      max( agg · wT + h · uT + b , 0 )
  an R×128 matrix.  Entry (p, q) only reads row p of `agg` and of `h`, column q of the two matrices and `b q`:
      max( Σ_k agg(p,k)·wT(k,q) + Σ_k h(p,k)·uT(k,q) + b(q) , 0 ).

  Two spellings of it are read here at an entry.  The tiled one multiplies both operands into zero accumulators, adds
  the two products, then the bias row laid along the rows, then takes the maximum with zero.  The plain one adds the
  bias to the first product before the second product is added.  The two differ by the order of a three-term sum,
  and addition of extended reals is commutative and associative (also at the infinities), so no finiteness is needed.
-/
import proofs.«165000_j48455821033981_1_alg».proof.Proof.LibPlainMatmul
import Idealize.ShloMosaic.Lib.ValueIdx
import Idealize.ShloMosaic.Lib.Pipeline.Value
import Idealize.ShloMosaic.PureOps.Ideal.Laws

noncomputable section

open scoped BigOperators

namespace Cert.GraphLayer

open Idealize.ShloMosaic Idealize.ShloMosaic.ValueIdx Idealize.ShloMosaic.PlainMatmul

/-- Entry q of one output row: `a` and `r` are the row of the aggregated features and of the node features. -/
def rowEntry (a r : Fin 128 → EReal) (wT uT : (⟨2, ![128, 128]⟩ : Shape).Idx → EReal) (b : Fin 128 → EReal)
    (q : Fin 128) : EReal :=
  max (((∑ k : Fin 128, a k * wT (ix2 k q)) + ∑ k : Fin 128, r k * uT (ix2 k q)) + b q)
    (Ideal.ofBits .f32 0x00000000#32)

/-- The layer as one function of whole matrices with R rows. -/
def layer {R : Nat} (agg h : (⟨2, ![R, 128]⟩ : Shape).Idx → EReal) (wT uT : (⟨2, ![128, 128]⟩ : Shape).Idx → EReal)
    (b : Fin 128 → EReal) : (⟨2, ![R, 128]⟩ : Shape).Idx → EReal :=
  fun i => rowEntry (fun k => agg (ix2 (i 0) k)) (fun k => h (ix2 (i 0) k)) wT uT b (i 1)

theorem layer_apply {R : Nat} (agg h : (⟨2, ![R, 128]⟩ : Shape).Idx → EReal)
    (wT uT : (⟨2, ![128, 128]⟩ : Shape).Idx → EReal) (b : Fin 128 → EReal) (p : Fin R) (q : Fin 128) :
    layer agg h wT uT b (ix2 p q) = rowEntry (fun k => agg (ix2 p k)) (fun k => h (ix2 p k)) wT uT b q := rfl

variable {R : Nat} (D : DotDims ⟨2, ![R, 128]⟩ ⟨2, ![128, 128]⟩ ⟨2, ![R, 128]⟩)

/-- Entry (p, q) of a plain product computed by the host: Σ_k lhs (p, k) · rhs (k, q). -/
theorem dotGeneral_entry (hD : IsPlain D) {φ₁ φ₂ : FTy} (prec : Option ContractPrecision) (sched : HostSchedule)
    (lhs : FVec Ideal ⟨2, ![R, 128]⟩ φ₁) (rhs : FVec Ideal ⟨2, ![128, 128]⟩ φ₂) (p : Fin R) (q : Fin 128) :
    FloatOps.dotGeneral D prec sched lhs rhs (ix2 p q) = ∑ k : Fin 128, lhs (ix2 p k) * rhs (ix2 k q) := by
  rw [Ideal.dotGeneral_apply, ← Equiv.sum_comp (contrFin D hD).symm]
  refine Finset.sum_congr rfl fun k _ => ?_
  rw [lhsIdx_eq D hD p q k, rhsIdx_eq D hD p q k]

/-- THE TILED SPELLING at an entry: two products into zero accumulators, their sum, the bias row laid along the rows,
    the maximum with zero.  (Narrowing an operand to a shorter float format is the identity on extended reals.) -/
theorem tiled_entry (hD : IsPlain D) (hb : (⟨2, ![1, 128]⟩ : Shape).Broadcasts ⟨2, ![R, 128]⟩)
    (hbits : FTy.bits .bf16 < FTy.bits .f32)
    (x0 x1 : FVec Ideal ⟨2, ![R, 128]⟩ .f32) (x2 x4 : FVec Ideal ⟨2, ![128, 128]⟩ .f32)
    (x3 : FVec Ideal ⟨2, ![1, 128]⟩ .f32) (p : Fin R) (q : Fin 128) :
    maximumf
        (addf
          (addf
            (matmul D none (truncf .bf16 x0 hbits) (truncf .bf16 x2 hbits) (constant ⟨2, ![R, 128]⟩ .f32 0x00000000#32))
            (matmul D none (truncf .bf16 x1 hbits) (truncf .bf16 x4 hbits) (constant ⟨2, ![R, 128]⟩ .f32 0x00000000#32)))
          (broadcastTo ⟨2, ![R, 128]⟩ x3 hb))
        (broadcast ⟨2, ![R, 128]⟩ (Scalar.ofBits (F := Ideal) .f32 0x00000000#32)) (ix2 p q)
      = rowEntry (fun k => x0 (ix2 p k)) (fun k => x1 (ix2 p k)) x2 x4 (fun j => x3 (ix2 (0 : Fin 1) j)) q := by
  rw [maximumf_apply, addf_apply, addf_apply, broadcastRow_apply]
  show max ((FloatOps.matmul D none (truncf .bf16 x0 hbits) (truncf .bf16 x2 hbits) _ (ix2 p q)
      + FloatOps.matmul D none (truncf .bf16 x1 hbits) (truncf .bf16 x4 hbits) _ (ix2 p q)) + _) _ = _
  rw [matmul_zero_apply D hD, matmul_zero_apply D hD]
  rfl

/-- THE PLAIN SPELLING as a whole matrix: product, plus bias, plus the second product, maximum with zero — given that
    the bias matrix repeats `b` in every row and that the last operand is zero everywhere. -/
theorem plain_eq_layer (hD : IsPlain D) (prec : Option ContractPrecision) (sched : HostSchedule)
    (agg h : FVec Ideal ⟨2, ![R, 128]⟩ .f32) (wT uT : FVec Ideal ⟨2, ![128, 128]⟩ .f32)
    (bias zero : FVec Ideal ⟨2, ![R, 128]⟩ .f32) (b : Fin 128 → EReal)
    (hbias : ∀ (p : Fin R) (q : Fin 128), bias (ix2 p q) = b q)
    (hzero : ∀ i, zero i = Ideal.ofBits .f32 0x00000000#32) :
    maximumf (addf (addf (FloatOps.dotGeneral D prec sched agg wT) bias) (FloatOps.dotGeneral D prec sched h uT)) zero
      = layer agg h wT uT b := by
  funext i
  obtain ⟨p, q, rfl⟩ : ∃ (p : Fin R) (q : Fin 128), i = ix2 p q := ⟨i 0, i 1, eq_ix2 i⟩
  rw [maximumf_apply, addf_apply, addf_apply, hbias, hzero, dotGeneral_entry D hD, dotGeneral_entry D hD,
    layer_apply]
  unfold rowEntry
  rw [add_right_comm]

end Cert.GraphLayer

end
-- ==== Proof.Region3.lean ====
/-
  Region 3 of the idealized kernel program: the array its output window leaves, as one function of the arrays the
  region finds when it is entered.

  The grid has 25 points.  Point t stages rows 2000·t … 2000·t + 1999 of the aggregated features and of the node
  features (all 128 columns), the whole of the two 128×128 matrices and of the 1×128 bias row, and writes back rows
  2000·t … 2000·t + 1999 of the output.  Entry (p, q) of the block the body stores is the layer's entry of row p of
  the two staged row blocks (LayerSpec), so the block written back is block t of the layer applied to the whole
  arrays; the 25 row blocks tile the 50000 rows, so the array ends holding the layer of the whole arrays.
-/
import proofs.«165000_j48455821033981_1_alg».proof.Proof.Gen.KernelIdeal.Frame
import proofs.«165000_j48455821033981_1_alg».proof.Proof.LayerSpec

set_option maxHeartbeats 4000000
set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Entry (p, q) of the block the body stores, from the staged blocks. -/
theorem stored_entry (x0 x1 : Vec Ideal S2000x128 .f32) (x2 x4 : Vec Ideal S128x128 .f32) (x3 : Vec Ideal S1x128 .f32)
    (p : Fin 2000) (q : Fin 128) :
    k3_pay1 (F := Ideal) x0 x1 x2 x4 x3 (ix2 p q)
      = Cert.GraphLayer.rowEntry (fun k => x0 (ix2 p k)) (fun k => x1 (ix2 p k)) x2 x4 (fun j => x3 (ix2 (0 : Fin 1) j)) q := by
  unfold k3_pay1
  simp only [shapeCast_self]
  exact Cert.GraphLayer.tiled_entry _ ⟨rfl, rfl, rfl, rfl, rfl, rfl⟩ _ _ x0 x1 x2 x4 x3 p q

/-- The block index maps over the grid: the two row-blocked inputs and the output are at row block t, column block 0;
    the matrices and the bias row are always at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The layer of the arrays the region finds. -/
abbrev result (c : Dev nD) : S50000x128.Idx → EReal :=
  Cert.GraphLayer.layer (R := 50000) (V c main_v55) (V c main_v45) (V c main_v56) (V c main_v57) (fun j => V c main_v58 (ix2 (0 : Fin 1) j))

/-- WHAT POINT t WRITES BACK is block t of the layer of the whole arrays. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero origin]
  simp only [View.ld_unit_zero (S := S2000x128) origin, View.ld_unit_zero (S := S128x128) origin,
    View.ld_unit_zero (S := S1x128) origin]
  obtain ⟨e00, e01, e10, e11, e20, e21, e30, e31, e40, e41, e50, e51⟩ := block_indices t
  funext y
  obtain ⟨p, q, rfl⟩ : ∃ (p : Fin 2000) (q : Fin 128), y = ix2 p q := ⟨y 0, y 1, eq_ix2 y⟩
  refine (stored_entry (iblk3 V c 0 t) (iblk3 V c 1 t) (iblk3 V c 2 t) (iblk3 V c 4 t) (iblk3 V c 3 t) p q).trans ?_
  -- the output entry's place in the whole array
  have hrow : ((((cfg3.win 5).blk t).view.emb (ix2 p q)) 0).val = t.val * 2000 + p.val := by
    show win3_5.index t (0 : Fin 2) * 2000 + 1 * (p : ℕ) = _; omega
  have hcol : (((cfg3.win 5).blk t).view.emb (ix2 p q)) 1 = q := Fin.ext (by
    show win3_5.index t (1 : Fin 2) * 128 + 1 * (q : ℕ) = _; omega)
  have h0 : ∀ k : Fin 128, ((cfg3.win 0).blk t).view.emb (ix2 p k)
      = ix2 ((((cfg3.win 5).blk t).view.emb (ix2 p q)) 0) k := fun k => by
    funext a; apply Fin.ext
    match a with
    | ⟨0, _⟩ => show win3_0.index t (0 : Fin 2) * 2000 + 1 * (p : ℕ) = _; rw [hrow]; omega
    | ⟨1, _⟩ => show win3_0.index t (1 : Fin 2) * 128 + 1 * (k : ℕ) = (k : ℕ); omega
  have h1 : ∀ k : Fin 128, ((cfg3.win 1).blk t).view.emb (ix2 p k)
      = ix2 ((((cfg3.win 5).blk t).view.emb (ix2 p q)) 0) k := fun k => by
    funext a; apply Fin.ext
    match a with
    | ⟨0, _⟩ => show win3_1.index t (0 : Fin 2) * 2000 + 1 * (p : ℕ) = _; rw [hrow]; omega
    | ⟨1, _⟩ => show win3_1.index t (1 : Fin 2) * 128 + 1 * (k : ℕ) = (k : ℕ); omega
  have h2 : ∀ z : S128x128.Idx, ((cfg3.win 2).blk t).view.emb z = z := fun z => by
    funext a; apply Fin.ext
    match a with
    | ⟨0, _⟩ => show win3_2.index t (0 : Fin 2) * 128 + 1 * (z 0).val = (z 0).val; omega
    | ⟨1, _⟩ => show win3_2.index t (1 : Fin 2) * 128 + 1 * (z 1).val = (z 1).val; omega
  have h4 : ∀ z : S128x128.Idx, ((cfg3.win 4).blk t).view.emb z = z := fun z => by
    funext a; apply Fin.ext
    match a with
    | ⟨0, _⟩ => show win3_4.index t (0 : Fin 2) * 128 + 1 * (z 0).val = (z 0).val; omega
    | ⟨1, _⟩ => show win3_4.index t (1 : Fin 2) * 128 + 1 * (z 1).val = (z 1).val; omega
  have h3 : ∀ z : S1x128.Idx, ((cfg3.win 3).blk t).view.emb z = z := fun z => by
    funext a; apply Fin.ext
    match a with
    | ⟨0, _⟩ => show win3_3.index t (0 : Fin 2) * 1 + 1 * (z 0).val = (z 0).val; omega
    | ⟨1, _⟩ => show win3_3.index t (1 : Fin 2) * 128 + 1 * (z 1).val = (z 1).val; omega
  show Cert.GraphLayer.rowEntry
      (fun k => V c main_v55 (((cfg3.win 0).blk t).view.emb (ix2 p k)))
      (fun k => V c main_v45 (((cfg3.win 1).blk t).view.emb (ix2 p k)))
      (fun z => V c main_v56 (((cfg3.win 2).blk t).view.emb z))
      (fun z => V c main_v57 (((cfg3.win 4).blk t).view.emb z))
      (fun j => V c main_v58 (((cfg3.win 3).blk t).view.emb (ix2 (0 : Fin 1) j))) q
    = Cert.GraphLayer.rowEntry
      (fun k => V c main_v55 (ix2 ((((cfg3.win 5).blk t).view.emb (ix2 p q)) 0) k))
      (fun k => V c main_v45 (ix2 ((((cfg3.win 5).blk t).view.emb (ix2 p q)) 0) k))
      (V c main_v56) (V c main_v57) (fun j => V c main_v58 (ix2 (0 : Fin 1) j))
      ((((cfg3.win 5).blk t).view.emb (ix2 p q)) 1)
  simp only [h0, h1, h2, h3, h4, hcol] <;> rfl

/-- An index of the array is in point t's block iff each coordinate is in the block's range on its axis. -/
theorem mem_block (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v59).slice (win3_5.rect t)).set ↔ _
  rw [View.set_slice_whole, Rect.mem_set_unit]
  exact Iff.rfl

/-- The 25 row blocks tile the array: row r lies in the block of point r / 2000. -/
theorem covered (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : (i 0).val / 2000 < cfg3.N := by show _ < 25; omega
  obtain ⟨-, -, -, -, -, -, -, -, -, -, e50, e51⟩ := block_indices ⟨(i 0).val / 2000, hN⟩
  refine ⟨⟨(i 0).val / 2000, hN⟩, flush3_5 _, ?_⟩
  rw [mem_block]
  intro a
  match a with
  | ⟨0, _⟩ =>
    show win3_5.index ⟨(i 0).val / 2000, hN⟩ (0 : Fin 2) * 2000 ≤ (i 0).val
      ∧ (i 0).val < win3_5.index ⟨(i 0).val / 2000, hN⟩ (0 : Fin 2) * 2000 + 2000
    rw [e50]; show (i 0).val / 2000 * 2000 ≤ _ ∧ _ < (i 0).val / 2000 * 2000 + 2000; omega
  | ⟨1, _⟩ =>
    show win3_5.index ⟨(i 0).val / 2000, hN⟩ (1 : Fin 2) * 128 ≤ (i 1).val
      ∧ (i 1).val < win3_5.index ⟨(i 0).val / 2000, hN⟩ (1 : Fin 2) * 128 + 128
    rw [e51]; omega

/-- THE ARRAY the region leaves: the layer of the arrays it found. -/
theorem array_eq (c : Dev nD) : (dat3 V c).arrAt 5 cfg3.N = result V c :=
  (dat3 V c).arrAt_eq_of_cover 5 (result V c) (fun t _ => flushed_eq V c t) (covered)

end Cert.KernelIdeal.Region3

end
-- ==== Proof.RefLayers.lean ====
/-
  The reference program's four layers, each as the layer function of LayerSpec.

  The reference computes a layer as  max( (agg · wT + bias) + h · uT , 0 )  with the bias vector laid along the rows
  by two broadcasts and the zero by a broadcast of a scalar.  Read at an entry this is the layer's entry up to the order
  of a three-term sum.
-/
import proofs.«165000_j48455821033981_1_alg».proof.Proof.Gen.ReferenceIdeal.Read
import proofs.«165000_j48455821033981_1_alg».proof.Proof.LayerSpec

noncomputable section

namespace Cert.ReferenceIdeal.Layers

open Cert.ReferenceIdeal Cert.ReferenceIdeal.Read Idealize.ShloMosaic Idealize.ShloMosaic.ValueIdx

/-- A vector of length 128 read at its one coordinate. -/
abbrev at1 (x : (⟨S128, .f32⟩ : BufTy).Contents (Elt Ideal)) : Fin 128 → EReal := fun j => x (ix1 j)

/-- The bias matrix of layer 0 repeats the bias vector in every row. -/
theorem bias0 (x4 : (⟨S128, .f32⟩ : BufTy).Contents (Elt Ideal)) (p : Fin 50000) (q : Fin 128) :
    val_main_v17 (F := Ideal) x4 (ix2 p q) = at1 x4 q := by
  rw [val_main_v17_apply, val_main_v16_apply]
  exact congrArg x4 (funext fun a => match a with | ⟨0, _⟩ => rfl)

/-- The last operand of layer 0's maximum is zero everywhere. -/
theorem zero0 (i : S50000x128.Idx) : val_main_call0_v0 (F := Ideal) i = Ideal.ofBits .f32 0x00000000#32 := by
  rw [val_main_call0_v0_apply, val_main_call0_cst_apply]; rfl

/-- LAYER 0 of the reference is the layer function of its aggregated features, its node features, the two transposed
    weight matrices and the bias vector. -/
theorem layer0 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v22 (F := Ideal) x0 x1 x3 x4 x5
      = Cert.GraphLayer.layer (R := 50000) (val_main_v13 (F := Ideal) x0 x1) (x0) (val_main_v14 (F := Ideal) x3) (val_main_v19 (F := Ideal) x5) (at1 x4) := by
  unfold val_main_v22 val_main_v21 val_main_v18 val_main_v15 val_main_v20
  exact Cert.GraphLayer.plain_eq_layer _ ⟨rfl, rfl, rfl, rfl, rfl, rfl⟩ none .single _ _ _ _
    (val_main_v17 (F := Ideal) x4) (val_main_call0_v0 (F := Ideal)) (at1 x4) (bias0 x4) zero0

/-- The bias matrix of layer 1 repeats the bias vector in every row. -/
theorem bias1 (x7 : (⟨S128, .f32⟩ : BufTy).Contents (Elt Ideal)) (p : Fin 50000) (q : Fin 128) :
    val_main_v36 (F := Ideal) x7 (ix2 p q) = at1 x7 q := by
  rw [val_main_v36_apply, val_main_v35_apply]
  exact congrArg x7 (funext fun a => match a with | ⟨0, _⟩ => rfl)

/-- The last operand of layer 1's maximum is zero everywhere. -/
theorem zero1 (i : S50000x128.Idx) : val_main_call1_v0 (F := Ideal) i = Ideal.ofBits .f32 0x00000000#32 := by
  rw [val_main_call1_v0_apply, val_main_call1_cst_apply]; rfl

/-- LAYER 1 of the reference is the layer function of its aggregated features, its node features, the two transposed
    weight matrices and the bias vector. -/
theorem layer1 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v41 (F := Ideal) x0 x1 x3 x4 x5 x6 x7 x8
      = Cert.GraphLayer.layer (R := 50000) (val_main_v32 (F := Ideal) x0 x1 x3 x4 x5) (val_main_v22 (F := Ideal) x0 x1 x3 x4 x5) (val_main_v33 (F := Ideal) x6) (val_main_v38 (F := Ideal) x8) (at1 x7) := by
  unfold val_main_v41 val_main_v40 val_main_v37 val_main_v34 val_main_v39
  exact Cert.GraphLayer.plain_eq_layer _ ⟨rfl, rfl, rfl, rfl, rfl, rfl⟩ none .single _ _ _ _
    (val_main_v36 (F := Ideal) x7) (val_main_call1_v0 (F := Ideal)) (at1 x7) (bias1 x7) zero1

/-- The bias matrix of layer 2 repeats the bias vector in every row. -/
theorem bias2 (x10 : (⟨S128, .f32⟩ : BufTy).Contents (Elt Ideal)) (p : Fin 50000) (q : Fin 128) :
    val_main_v55 (F := Ideal) x10 (ix2 p q) = at1 x10 q := by
  rw [val_main_v55_apply, val_main_v54_apply]
  exact congrArg x10 (funext fun a => match a with | ⟨0, _⟩ => rfl)

/-- The last operand of layer 2's maximum is zero everywhere. -/
theorem zero2 (i : S50000x128.Idx) : val_main_call2_v0 (F := Ideal) i = Ideal.ofBits .f32 0x00000000#32 := by
  rw [val_main_call2_v0_apply, val_main_call2_cst_apply]; rfl

/-- LAYER 2 of the reference is the layer function of its aggregated features, its node features, the two transposed
    weight matrices and the bias vector. -/
theorem layer2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v60 (F := Ideal) x0 x1 x3 x4 x5 x6 x7 x8 x9 x10 x11
      = Cert.GraphLayer.layer (R := 50000) (val_main_v51 (F := Ideal) x0 x1 x3 x4 x5 x6 x7 x8) (val_main_v41 (F := Ideal) x0 x1 x3 x4 x5 x6 x7 x8) (val_main_v52 (F := Ideal) x9) (val_main_v57 (F := Ideal) x11) (at1 x10) := by
  unfold val_main_v60 val_main_v59 val_main_v56 val_main_v53 val_main_v58
  exact Cert.GraphLayer.plain_eq_layer _ ⟨rfl, rfl, rfl, rfl, rfl, rfl⟩ none .single _ _ _ _
    (val_main_v55 (F := Ideal) x10) (val_main_call2_v0 (F := Ideal)) (at1 x10) (bias2 x10) zero2

/-- The bias matrix of layer 3 repeats the bias vector in every row. -/
theorem bias3 (x13 : (⟨S128, .f32⟩ : BufTy).Contents (Elt Ideal)) (p : Fin 50000) (q : Fin 128) :
    val_main_v74 (F := Ideal) x13 (ix2 p q) = at1 x13 q := by
  rw [val_main_v74_apply, val_main_v73_apply]
  exact congrArg x13 (funext fun a => match a with | ⟨0, _⟩ => rfl)

/-- The last operand of layer 3's maximum is zero everywhere. -/
theorem zero3 (i : S50000x128.Idx) : val_main_call3_v0 (F := Ideal) i = Ideal.ofBits .f32 0x00000000#32 := by
  rw [val_main_call3_v0_apply, val_main_call3_cst_apply]; rfl

/-- LAYER 3 of the reference is the layer function of its aggregated features, its node features, the two transposed
    weight matrices and the bias vector. -/
theorem layer3 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) :
    val_main_v79 (F := Ideal) x0 x1 x3 x4 x5 x6 x7 x8 x9 x10 x11 x12 x13 x14
      = Cert.GraphLayer.layer (R := 50000) (val_main_v70 (F := Ideal) x0 x1 x3 x4 x5 x6 x7 x8 x9 x10 x11) (val_main_v60 (F := Ideal) x0 x1 x3 x4 x5 x6 x7 x8 x9 x10 x11) (val_main_v71 (F := Ideal) x12) (val_main_v76 (F := Ideal) x14) (at1 x13) := by
  unfold val_main_v79 val_main_v78 val_main_v75 val_main_v72 val_main_v77
  exact Cert.GraphLayer.plain_eq_layer _ ⟨rfl, rfl, rfl, rfl, rfl, rfl⟩ none .single _ _ _ _
    (val_main_v74 (F := Ideal) x13) (val_main_call3_v0 (F := Ideal)) (at1 x13) (bias3 x13) zero3

end Cert.ReferenceIdeal.Layers

end
-- ==== Proof.Region2.lean ====
/-
  Region 2 of the idealized kernel program: the array its output window leaves, as one function of the arrays the
  region finds when it is entered.

  The grid has 25 points.  Point t stages rows 2000·t … 2000·t + 1999 of the aggregated features and of the node
  features (all 128 columns), the whole of the two 128×128 matrices and of the 1×128 bias row, and writes back rows
  2000·t … 2000·t + 1999 of the output.  Entry (p, q) of the block the body stores is the layer's entry of row p of
  the two staged row blocks (LayerSpec), so the block written back is block t of the layer applied to the whole
  arrays; the 25 row blocks tile the 50000 rows, so the array ends holding the layer of the whole arrays.
-/
import proofs.«165000_j48455821033981_1_alg».proof.Proof.Gen.KernelIdeal.Frame
import proofs.«165000_j48455821033981_1_alg».proof.Proof.LayerSpec

set_option maxHeartbeats 4000000
set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Entry (p, q) of the block the body stores, from the staged blocks. -/
theorem stored_entry (x0 x1 : Vec Ideal S2000x128 .f32) (x2 x4 : Vec Ideal S128x128 .f32) (x3 : Vec Ideal S1x128 .f32)
    (p : Fin 2000) (q : Fin 128) :
    k2_pay1 (F := Ideal) x0 x1 x2 x4 x3 (ix2 p q)
      = Cert.GraphLayer.rowEntry (fun k => x0 (ix2 p k)) (fun k => x1 (ix2 p k)) x2 x4 (fun j => x3 (ix2 (0 : Fin 1) j)) q := by
  unfold k2_pay1
  simp only [shapeCast_self]
  exact Cert.GraphLayer.tiled_entry _ ⟨rfl, rfl, rfl, rfl, rfl, rfl⟩ _ _ x0 x1 x2 x4 x3 p q

/-- The block index maps over the grid: the two row-blocked inputs and the output are at row block t, column block 0;
    the matrices and the bias row are always at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the arrays the region finds. -/
abbrev result (c : Dev nD) : S50000x128.Idx → EReal :=
  Cert.GraphLayer.layer (R := 50000) (V c main_v41) (V c main_v31) (V c main_v42) (V c main_v43) (fun j => V c main_v44 (ix2 (0 : Fin 1) j))

/-- WHAT POINT t WRITES BACK is block t of the layer of the whole arrays. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero origin]
  simp only [View.ld_unit_zero (S := S2000x128) origin, View.ld_unit_zero (S := S128x128) origin,
    View.ld_unit_zero (S := S1x128) origin]
  obtain ⟨e00, e01, e10, e11, e20, e21, e30, e31, e40, e41, e50, e51⟩ := block_indices t
  funext y
  obtain ⟨p, q, rfl⟩ : ∃ (p : Fin 2000) (q : Fin 128), y = ix2 p q := ⟨y 0, y 1, eq_ix2 y⟩
  refine (stored_entry (iblk2 V c 0 t) (iblk2 V c 1 t) (iblk2 V c 2 t) (iblk2 V c 4 t) (iblk2 V c 3 t) p q).trans ?_
  -- the output entry's place in the whole array
  have hrow : ((((cfg2.win 5).blk t).view.emb (ix2 p q)) 0).val = t.val * 2000 + p.val := by
    show win2_5.index t (0 : Fin 2) * 2000 + 1 * (p : ℕ) = _; omega
  have hcol : (((cfg2.win 5).blk t).view.emb (ix2 p q)) 1 = q := Fin.ext (by
    show win2_5.index t (1 : Fin 2) * 128 + 1 * (q : ℕ) = _; omega)
  have h0 : ∀ k : Fin 128, ((cfg2.win 0).blk t).view.emb (ix2 p k)
      = ix2 ((((cfg2.win 5).blk t).view.emb (ix2 p q)) 0) k := fun k => by
    funext a; apply Fin.ext
    match a with
    | ⟨0, _⟩ => show win2_0.index t (0 : Fin 2) * 2000 + 1 * (p : ℕ) = _; rw [hrow]; omega
    | ⟨1, _⟩ => show win2_0.index t (1 : Fin 2) * 128 + 1 * (k : ℕ) = (k : ℕ); omega
  have h1 : ∀ k : Fin 128, ((cfg2.win 1).blk t).view.emb (ix2 p k)
      = ix2 ((((cfg2.win 5).blk t).view.emb (ix2 p q)) 0) k := fun k => by
    funext a; apply Fin.ext
    match a with
    | ⟨0, _⟩ => show win2_1.index t (0 : Fin 2) * 2000 + 1 * (p : ℕ) = _; rw [hrow]; omega
    | ⟨1, _⟩ => show win2_1.index t (1 : Fin 2) * 128 + 1 * (k : ℕ) = (k : ℕ); omega
  have h2 : ∀ z : S128x128.Idx, ((cfg2.win 2).blk t).view.emb z = z := fun z => by
    funext a; apply Fin.ext
    match a with
    | ⟨0, _⟩ => show win2_2.index t (0 : Fin 2) * 128 + 1 * (z 0).val = (z 0).val; omega
    | ⟨1, _⟩ => show win2_2.index t (1 : Fin 2) * 128 + 1 * (z 1).val = (z 1).val; omega
  have h4 : ∀ z : S128x128.Idx, ((cfg2.win 4).blk t).view.emb z = z := fun z => by
    funext a; apply Fin.ext
    match a with
    | ⟨0, _⟩ => show win2_4.index t (0 : Fin 2) * 128 + 1 * (z 0).val = (z 0).val; omega
    | ⟨1, _⟩ => show win2_4.index t (1 : Fin 2) * 128 + 1 * (z 1).val = (z 1).val; omega
  have h3 : ∀ z : S1x128.Idx, ((cfg2.win 3).blk t).view.emb z = z := fun z => by
    funext a; apply Fin.ext
    match a with
    | ⟨0, _⟩ => show win2_3.index t (0 : Fin 2) * 1 + 1 * (z 0).val = (z 0).val; omega
    | ⟨1, _⟩ => show win2_3.index t (1 : Fin 2) * 128 + 1 * (z 1).val = (z 1).val; omega
  show Cert.GraphLayer.rowEntry
      (fun k => V c main_v41 (((cfg2.win 0).blk t).view.emb (ix2 p k)))
      (fun k => V c main_v31 (((cfg2.win 1).blk t).view.emb (ix2 p k)))
      (fun z => V c main_v42 (((cfg2.win 2).blk t).view.emb z))
      (fun z => V c main_v43 (((cfg2.win 4).blk t).view.emb z))
      (fun j => V c main_v44 (((cfg2.win 3).blk t).view.emb (ix2 (0 : Fin 1) j))) q
    = Cert.GraphLayer.rowEntry
      (fun k => V c main_v41 (ix2 ((((cfg2.win 5).blk t).view.emb (ix2 p q)) 0) k))
      (fun k => V c main_v31 (ix2 ((((cfg2.win 5).blk t).view.emb (ix2 p q)) 0) k))
      (V c main_v42) (V c main_v43) (fun j => V c main_v44 (ix2 (0 : Fin 1) j))
      ((((cfg2.win 5).blk t).view.emb (ix2 p q)) 1)
  simp only [h0, h1, h2, h3, h4, hcol] <;> rfl

/-- An index of the array is in point t's block iff each coordinate is in the block's range on its axis. -/
theorem mem_block (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v45).slice (win2_5.rect t)).set ↔ _
  rw [View.set_slice_whole, Rect.mem_set_unit]
  exact Iff.rfl

/-- The 25 row blocks tile the array: row r lies in the block of point r / 2000. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 2000 < cfg2.N := by show _ < 25; omega
  obtain ⟨-, -, -, -, -, -, -, -, -, -, e50, e51⟩ := block_indices ⟨(i 0).val / 2000, hN⟩
  refine ⟨⟨(i 0).val / 2000, hN⟩, flush2_5 _, ?_⟩
  rw [mem_block]
  intro a
  match a with
  | ⟨0, _⟩ =>
    show win2_5.index ⟨(i 0).val / 2000, hN⟩ (0 : Fin 2) * 2000 ≤ (i 0).val
      ∧ (i 0).val < win2_5.index ⟨(i 0).val / 2000, hN⟩ (0 : Fin 2) * 2000 + 2000
    rw [e50]; show (i 0).val / 2000 * 2000 ≤ _ ∧ _ < (i 0).val / 2000 * 2000 + 2000; omega
  | ⟨1, _⟩ =>
    show win2_5.index ⟨(i 0).val / 2000, hN⟩ (1 : Fin 2) * 128 ≤ (i 1).val
      ∧ (i 1).val < win2_5.index ⟨(i 0).val / 2000, hN⟩ (1 : Fin 2) * 128 + 128
    rw [e51]; omega

/-- THE ARRAY the region leaves: the layer of the arrays it found. -/
theorem array_eq (c : Dev nD) : (dat2 V c).arrAt 5 cfg2.N = result V c :=
  (dat2 V c).arrAt_eq_of_cover 5 (result V c) (fun t _ => flushed_eq V c t) (covered)

end Cert.KernelIdeal.Region2

end
-- ==== Proof.Region1.lean ====
/-
  Region 1 of the idealized kernel program: the array its output window leaves, as one function of the arrays the
  region finds when it is entered.

  The grid has 25 points.  Point t stages rows 2000·t … 2000·t + 1999 of the aggregated features and of the node
  features (all 128 columns), the whole of the two 128×128 matrices and of the 1×128 bias row, and writes back rows
  2000·t … 2000·t + 1999 of the output.  Entry (p, q) of the block the body stores is the layer's entry of row p of
  the two staged row blocks (LayerSpec), so the block written back is block t of the layer applied to the whole
  arrays; the 25 row blocks tile the 50000 rows, so the array ends holding the layer of the whole arrays.
-/
import proofs.«165000_j48455821033981_1_alg».proof.Proof.Gen.KernelIdeal.Frame
import proofs.«165000_j48455821033981_1_alg».proof.Proof.LayerSpec

set_option maxHeartbeats 4000000
set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Entry (p, q) of the block the body stores, from the staged blocks. -/
theorem stored_entry (x0 x1 : Vec Ideal S2000x128 .f32) (x2 x4 : Vec Ideal S128x128 .f32) (x3 : Vec Ideal S1x128 .f32)
    (p : Fin 2000) (q : Fin 128) :
    k1_pay1 (F := Ideal) x0 x1 x2 x4 x3 (ix2 p q)
      = Cert.GraphLayer.rowEntry (fun k => x0 (ix2 p k)) (fun k => x1 (ix2 p k)) x2 x4 (fun j => x3 (ix2 (0 : Fin 1) j)) q := by
  unfold k1_pay1
  simp only [shapeCast_self]
  exact Cert.GraphLayer.tiled_entry _ ⟨rfl, rfl, rfl, rfl, rfl, rfl⟩ _ _ x0 x1 x2 x4 x3 p q

/-- The block index maps over the grid: the two row-blocked inputs and the output are at row block t, column block 0;
    the matrices and the bias row are always at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays the region finds. -/
abbrev result (c : Dev nD) : S50000x128.Idx → EReal :=
  Cert.GraphLayer.layer (R := 50000) (V c main_v27) (V c main_v17) (V c main_v28) (V c main_v29) (fun j => V c main_v30 (ix2 (0 : Fin 1) j))

/-- WHAT POINT t WRITES BACK is block t of the layer of the whole arrays. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S2000x128) origin, View.ld_unit_zero (S := S128x128) origin,
    View.ld_unit_zero (S := S1x128) origin]
  obtain ⟨e00, e01, e10, e11, e20, e21, e30, e31, e40, e41, e50, e51⟩ := block_indices t
  funext y
  obtain ⟨p, q, rfl⟩ : ∃ (p : Fin 2000) (q : Fin 128), y = ix2 p q := ⟨y 0, y 1, eq_ix2 y⟩
  refine (stored_entry (iblk1 V c 0 t) (iblk1 V c 1 t) (iblk1 V c 2 t) (iblk1 V c 4 t) (iblk1 V c 3 t) p q).trans ?_
  -- the output entry's place in the whole array
  have hrow : ((((cfg1.win 5).blk t).view.emb (ix2 p q)) 0).val = t.val * 2000 + p.val := by
    show win1_5.index t (0 : Fin 2) * 2000 + 1 * (p : ℕ) = _; omega
  have hcol : (((cfg1.win 5).blk t).view.emb (ix2 p q)) 1 = q := Fin.ext (by
    show win1_5.index t (1 : Fin 2) * 128 + 1 * (q : ℕ) = _; omega)
  have h0 : ∀ k : Fin 128, ((cfg1.win 0).blk t).view.emb (ix2 p k)
      = ix2 ((((cfg1.win 5).blk t).view.emb (ix2 p q)) 0) k := fun k => by
    funext a; apply Fin.ext
    match a with
    | ⟨0, _⟩ => show win1_0.index t (0 : Fin 2) * 2000 + 1 * (p : ℕ) = _; rw [hrow]; omega
    | ⟨1, _⟩ => show win1_0.index t (1 : Fin 2) * 128 + 1 * (k : ℕ) = (k : ℕ); omega
  have h1 : ∀ k : Fin 128, ((cfg1.win 1).blk t).view.emb (ix2 p k)
      = ix2 ((((cfg1.win 5).blk t).view.emb (ix2 p q)) 0) k := fun k => by
    funext a; apply Fin.ext
    match a with
    | ⟨0, _⟩ => show win1_1.index t (0 : Fin 2) * 2000 + 1 * (p : ℕ) = _; rw [hrow]; omega
    | ⟨1, _⟩ => show win1_1.index t (1 : Fin 2) * 128 + 1 * (k : ℕ) = (k : ℕ); omega
  have h2 : ∀ z : S128x128.Idx, ((cfg1.win 2).blk t).view.emb z = z := fun z => by
    funext a; apply Fin.ext
    match a with
    | ⟨0, _⟩ => show win1_2.index t (0 : Fin 2) * 128 + 1 * (z 0).val = (z 0).val; omega
    | ⟨1, _⟩ => show win1_2.index t (1 : Fin 2) * 128 + 1 * (z 1).val = (z 1).val; omega
  have h4 : ∀ z : S128x128.Idx, ((cfg1.win 4).blk t).view.emb z = z := fun z => by
    funext a; apply Fin.ext
    match a with
    | ⟨0, _⟩ => show win1_4.index t (0 : Fin 2) * 128 + 1 * (z 0).val = (z 0).val; omega
    | ⟨1, _⟩ => show win1_4.index t (1 : Fin 2) * 128 + 1 * (z 1).val = (z 1).val; omega
  have h3 : ∀ z : S1x128.Idx, ((cfg1.win 3).blk t).view.emb z = z := fun z => by
    funext a; apply Fin.ext
    match a with
    | ⟨0, _⟩ => show win1_3.index t (0 : Fin 2) * 1 + 1 * (z 0).val = (z 0).val; omega
    | ⟨1, _⟩ => show win1_3.index t (1 : Fin 2) * 128 + 1 * (z 1).val = (z 1).val; omega
  show Cert.GraphLayer.rowEntry
      (fun k => V c main_v27 (((cfg1.win 0).blk t).view.emb (ix2 p k)))
      (fun k => V c main_v17 (((cfg1.win 1).blk t).view.emb (ix2 p k)))
      (fun z => V c main_v28 (((cfg1.win 2).blk t).view.emb z))
      (fun z => V c main_v29 (((cfg1.win 4).blk t).view.emb z))
      (fun j => V c main_v30 (((cfg1.win 3).blk t).view.emb (ix2 (0 : Fin 1) j))) q
    = Cert.GraphLayer.rowEntry
      (fun k => V c main_v27 (ix2 ((((cfg1.win 5).blk t).view.emb (ix2 p q)) 0) k))
      (fun k => V c main_v17 (ix2 ((((cfg1.win 5).blk t).view.emb (ix2 p q)) 0) k))
      (V c main_v28) (V c main_v29) (fun j => V c main_v30 (ix2 (0 : Fin 1) j))
      ((((cfg1.win 5).blk t).view.emb (ix2 p q)) 1)
  simp only [h0, h1, h2, h3, h4, hcol] <;> rfl

/-- An index of the array is in point t's block iff each coordinate is in the block's range on its axis. -/
theorem mem_block (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v31).slice (win1_5.rect t)).set ↔ _
  rw [View.set_slice_whole, Rect.mem_set_unit]
  exact Iff.rfl

/-- The 25 row blocks tile the array: row r lies in the block of point r / 2000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 2000 < cfg1.N := by show _ < 25; omega
  obtain ⟨-, -, -, -, -, -, -, -, -, -, e50, e51⟩ := block_indices ⟨(i 0).val / 2000, hN⟩
  refine ⟨⟨(i 0).val / 2000, hN⟩, flush1_5 _, ?_⟩
  rw [mem_block]
  intro a
  match a with
  | ⟨0, _⟩ =>
    show win1_5.index ⟨(i 0).val / 2000, hN⟩ (0 : Fin 2) * 2000 ≤ (i 0).val
      ∧ (i 0).val < win1_5.index ⟨(i 0).val / 2000, hN⟩ (0 : Fin 2) * 2000 + 2000
    rw [e50]; show (i 0).val / 2000 * 2000 ≤ _ ∧ _ < (i 0).val / 2000 * 2000 + 2000; omega
  | ⟨1, _⟩ =>
    show win1_5.index ⟨(i 0).val / 2000, hN⟩ (1 : Fin 2) * 128 ≤ (i 1).val
      ∧ (i 1).val < win1_5.index ⟨(i 0).val / 2000, hN⟩ (1 : Fin 2) * 128 + 128
    rw [e51]; omega

/-- THE ARRAY the region leaves: the layer of the arrays it found. -/
theorem array_eq (c : Dev nD) : (dat1 V c).arrAt 5 cfg1.N = result V c :=
  (dat1 V c).arrAt_eq_of_cover 5 (result V c) (fun t _ => flushed_eq V c t) (covered)

end Cert.KernelIdeal.Region1

end
-- ==== Proof.Region0.lean ====
/-
  Region 0 of the idealized kernel program: the array its output window leaves, as one function of the arrays the
  region finds when it is entered.

  The grid has 25 points.  Point t stages rows 2000·t … 2000·t + 1999 of the aggregated features and of the node
  features (all 128 columns), the whole of the two 128×128 matrices and of the 1×128 bias row, and writes back rows
  2000·t … 2000·t + 1999 of the output.  Entry (p, q) of the block the body stores is the layer's entry of row p of
  the two staged row blocks (LayerSpec), so the block written back is block t of the layer applied to the whole
  arrays; the 25 row blocks tile the 50000 rows, so the array ends holding the layer of the whole arrays.
-/
import proofs.«165000_j48455821033981_1_alg».proof.Proof.Gen.KernelIdeal.Frame
import proofs.«165000_j48455821033981_1_alg».proof.Proof.LayerSpec

set_option maxHeartbeats 4000000
set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Entry (p, q) of the block the body stores, from the staged blocks. -/
theorem stored_entry (x0 x1 : Vec Ideal S2000x128 .f32) (x2 x4 : Vec Ideal S128x128 .f32) (x3 : Vec Ideal S1x128 .f32)
    (p : Fin 2000) (q : Fin 128) :
    k0_pay1 (F := Ideal) x0 x1 x2 x4 x3 (ix2 p q)
      = Cert.GraphLayer.rowEntry (fun k => x0 (ix2 p k)) (fun k => x1 (ix2 p k)) x2 x4 (fun j => x3 (ix2 (0 : Fin 1) j)) q := by
  unfold k0_pay1
  simp only [shapeCast_self]
  exact Cert.GraphLayer.tiled_entry _ ⟨rfl, rfl, rfl, rfl, rfl, rfl⟩ _ _ x0 x1 x2 x4 x3 p q

/-- The block index maps over the grid: the two row-blocked inputs and the output are at row block t, column block 0;
    the matrices and the bias row are always at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays the region finds. -/
abbrev result (c : Dev nD) : S50000x128.Idx → EReal :=
  Cert.GraphLayer.layer (R := 50000) (V c main_v13) (V c main_arg0) (V c main_v14) (V c main_v15) (fun j => V c main_v16 (ix2 (0 : Fin 1) j))

/-- WHAT POINT t WRITES BACK is block t of the layer of the whole arrays. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x128) origin,
    View.ld_unit_zero (S := S1x128) origin]
  obtain ⟨e00, e01, e10, e11, e20, e21, e30, e31, e40, e41, e50, e51⟩ := block_indices t
  funext y
  obtain ⟨p, q, rfl⟩ : ∃ (p : Fin 2000) (q : Fin 128), y = ix2 p q := ⟨y 0, y 1, eq_ix2 y⟩
  refine (stored_entry (iblk0 V c 0 t) (iblk0 V c 1 t) (iblk0 V c 2 t) (iblk0 V c 4 t) (iblk0 V c 3 t) p q).trans ?_
  -- the output entry's place in the whole array
  have hrow : ((((cfg0.win 5).blk t).view.emb (ix2 p q)) 0).val = t.val * 2000 + p.val := by
    show win0_5.index t (0 : Fin 2) * 2000 + 1 * (p : ℕ) = _; omega
  have hcol : (((cfg0.win 5).blk t).view.emb (ix2 p q)) 1 = q := Fin.ext (by
    show win0_5.index t (1 : Fin 2) * 128 + 1 * (q : ℕ) = _; omega)
  have h0 : ∀ k : Fin 128, ((cfg0.win 0).blk t).view.emb (ix2 p k)
      = ix2 ((((cfg0.win 5).blk t).view.emb (ix2 p q)) 0) k := fun k => by
    funext a; apply Fin.ext
    match a with
    | ⟨0, _⟩ => show win0_0.index t (0 : Fin 2) * 2000 + 1 * (p : ℕ) = _; rw [hrow]; omega
    | ⟨1, _⟩ => show win0_0.index t (1 : Fin 2) * 128 + 1 * (k : ℕ) = (k : ℕ); omega
  have h1 : ∀ k : Fin 128, ((cfg0.win 1).blk t).view.emb (ix2 p k)
      = ix2 ((((cfg0.win 5).blk t).view.emb (ix2 p q)) 0) k := fun k => by
    funext a; apply Fin.ext
    match a with
    | ⟨0, _⟩ => show win0_1.index t (0 : Fin 2) * 2000 + 1 * (p : ℕ) = _; rw [hrow]; omega
    | ⟨1, _⟩ => show win0_1.index t (1 : Fin 2) * 128 + 1 * (k : ℕ) = (k : ℕ); omega
  have h2 : ∀ z : S128x128.Idx, ((cfg0.win 2).blk t).view.emb z = z := fun z => by
    funext a; apply Fin.ext
    match a with
    | ⟨0, _⟩ => show win0_2.index t (0 : Fin 2) * 128 + 1 * (z 0).val = (z 0).val; omega
    | ⟨1, _⟩ => show win0_2.index t (1 : Fin 2) * 128 + 1 * (z 1).val = (z 1).val; omega
  have h4 : ∀ z : S128x128.Idx, ((cfg0.win 4).blk t).view.emb z = z := fun z => by
    funext a; apply Fin.ext
    match a with
    | ⟨0, _⟩ => show win0_4.index t (0 : Fin 2) * 128 + 1 * (z 0).val = (z 0).val; omega
    | ⟨1, _⟩ => show win0_4.index t (1 : Fin 2) * 128 + 1 * (z 1).val = (z 1).val; omega
  have h3 : ∀ z : S1x128.Idx, ((cfg0.win 3).blk t).view.emb z = z := fun z => by
    funext a; apply Fin.ext
    match a with
    | ⟨0, _⟩ => show win0_3.index t (0 : Fin 2) * 1 + 1 * (z 0).val = (z 0).val; omega
    | ⟨1, _⟩ => show win0_3.index t (1 : Fin 2) * 128 + 1 * (z 1).val = (z 1).val; omega
  show Cert.GraphLayer.rowEntry
      (fun k => V c main_v13 (((cfg0.win 0).blk t).view.emb (ix2 p k)))
      (fun k => V c main_arg0 (((cfg0.win 1).blk t).view.emb (ix2 p k)))
      (fun z => V c main_v14 (((cfg0.win 2).blk t).view.emb z))
      (fun z => V c main_v15 (((cfg0.win 4).blk t).view.emb z))
      (fun j => V c main_v16 (((cfg0.win 3).blk t).view.emb (ix2 (0 : Fin 1) j))) q
    = Cert.GraphLayer.rowEntry
      (fun k => V c main_v13 (ix2 ((((cfg0.win 5).blk t).view.emb (ix2 p q)) 0) k))
      (fun k => V c main_arg0 (ix2 ((((cfg0.win 5).blk t).view.emb (ix2 p q)) 0) k))
      (V c main_v14) (V c main_v15) (fun j => V c main_v16 (ix2 (0 : Fin 1) j))
      ((((cfg0.win 5).blk t).view.emb (ix2 p q)) 1)
  simp only [h0, h1, h2, h3, h4, hcol] <;> rfl

/-- An index of the array is in point t's block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v17).slice (win0_5.rect t)).set ↔ _
  rw [View.set_slice_whole, Rect.mem_set_unit]
  exact Iff.rfl

/-- The 25 row blocks tile the array: row r lies in the block of point r / 2000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < cfg0.N := by show _ < 25; omega
  obtain ⟨-, -, -, -, -, -, -, -, -, -, e50, e51⟩ := block_indices ⟨(i 0).val / 2000, hN⟩
  refine ⟨⟨(i 0).val / 2000, hN⟩, flush0_5 _, ?_⟩
  rw [mem_block]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [e50]; show (i 0).val / 2000 * 2000 ≤ _ ∧ _ < (i 0).val / 2000 * 2000 + 2000; omega
  | ⟨1, _⟩ =>
    show win0_5.index ⟨(i 0).val / 2000, hN⟩ (1 : Fin 2) * 128 ≤ (i 1).val
      ∧ (i 1).val < win0_5.index ⟨(i 0).val / 2000, hN⟩ (1 : Fin 2) * 128 + 128
    rw [e51]; omega

/-- THE ARRAY the region leaves: the layer of the arrays it found. -/
theorem array_eq (c : Dev nD) : (dat0 V c).arrAt 5 cfg0.N = result V c :=
  (dat0 V c).arrAt_eq_of_cover 5 (result V c) (fun t _ => flushed_eq V c t) (covered)

end Cert.KernelIdeal.Region0

end
-- ==== Proof.Stage0.lean ====
/-
  Layer 0 of the idealized kernel program: the arrays region 0 finds when it is entered, and the array it leaves.

  The stretch of host operations before the region gathers the node features along the edge sources, adds them up at
  the edge targets, transposes the layer's two weight matrices and reshapes its bias vector to one row.  These are the
  reference's own operations on the same operands, so each array the region finds is the reference's value of that
  stage; the region leaves the layer function of them (Region0), which is the reference's layer (RefLayers).
-/
import proofs.«165000_j48455821033981_1_alg».proof.Proof.Gen.KernelIdeal.Frame
import proofs.«165000_j48455821033981_1_alg».proof.Proof.Gen.ReferenceIdeal.Read
import proofs.«165000_j48455821033981_1_alg».proof.Proof.Region0
import proofs.«165000_j48455821033981_1_alg».proof.Proof.RefLayers
import Idealize.ShloMosaic.Lib.ValueIdx
import Idealize.ShloMosaic.Lib.Pipeline.Value
import Idealize.ShloMosaic.Lib.StableHlo.Run

set_option maxHeartbeats 4000000
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read

/-- The edge sources after the first stretch: the reference's. -/
theorem src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results <;> rfl

/-- The edge targets after the first stretch: the reference's. -/
theorem dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results <;> rfl

/-- The aggregated features region 0 finds. -/
theorem agg0 (c : Dev nD) : V1 m ρ c main_v13 = val_main_v13 (F := Ideal) (m ((c : Thread nD τ).loc main_arg0)) (m ((c : Thread nD τ).loc main_arg1)) := by
  show StableHlo.after hostOps0 (W0 m ρ c) (Proc.devRef .tc main_v13) = _
  after_results <;> rfl

/-- The node features region 0 finds. -/
theorem hin0 (c : Dev nD) : V1 m ρ c main_arg0 = (m ((c : Thread nD τ).loc main_arg0)) := by
  show StableHlo.after hostOps0 (W0 m ρ c) (Proc.devRef .tc main_arg0) = _
  after_results <;> rfl

/-- The first transposed weight matrix. -/
theorem wT0 (c : Dev nD) : V1 m ρ c main_v14 = val_main_v14 (F := Ideal) (m ((c : Thread nD τ).loc main_arg3)) := by
  show StableHlo.after hostOps0 (W0 m ρ c) (Proc.devRef .tc main_v14) = _
  after_results <;> rfl

/-- The second transposed weight matrix. -/
theorem uT0 (c : Dev nD) : V1 m ρ c main_v15 = val_main_v19 (F := Ideal) (m ((c : Thread nD τ).loc main_arg5)) := by
  show StableHlo.after hostOps0 (W0 m ρ c) (Proc.devRef .tc main_v15) = _
  after_results <;> rfl

/-- The bias row: the bias vector reshaped to one row, read along that row. -/
theorem bias0 (c : Dev nD) :
    (fun j : Fin 128 => V1 m ρ c main_v16 (ix2 (0 : Fin 1) j)) = Cert.ReferenceIdeal.Layers.at1 (m ((c : Thread nD τ).loc main_arg4)) := by
  funext j
  show StableHlo.after hostOps0 (W0 m ρ c) (Proc.devRef .tc main_v16) (ix2 (0 : Fin 1) j) = _
  after_results
  exact (shapeCast_addUnit_apply ![128] _ _ (ix2 (0 : Fin 1) j)).trans
    (congrArg _ (funext fun a => match a with | ⟨0, _⟩ => rfl))

/-- THE NODE FEATURES AFTER LAYER 0: the reference's. -/
theorem h1 (c : Dev nD) : W2 m ρ c (Proc.devRef .tc main_v17) = val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Cert.KernelIdeal.Region0.array_eq (V1 m ρ) c).trans ?_)
  show Cert.GraphLayer.layer (R := 50000) (V1 m ρ c main_v13) (V1 m ρ c main_arg0) (V1 m ρ c main_v14)
    (V1 m ρ c main_v15) (fun j : Fin 128 => V1 m ρ c main_v16 (ix2 (0 : Fin 1) j)) = _
  rw [agg0, hin0, wT0, uT0, bias0]
  exact (Cert.ReferenceIdeal.Layers.layer0 _ _ _ _ _).symm

end Cert.KernelIdeal.Stages

end
-- ==== Proof.Keep.lean ====
/-
  Buffers that nothing between two segment boundaries writes keep their contents.

  An argument of the program is written by no host operation and is the array of no output window, so at every
  boundary it holds what it held at launch.  The two index vectors (edge sources and edge targets) are computed
  once, in the first stretch of host operations, and never written again, so at every later boundary they hold what
  they held after that first stretch.
-/
import proofs.«165000_j48455821033981_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)
theorem W2_main_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl

theorem W2_main_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

theorem W2_main_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

theorem W2_main_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl

theorem W2_main_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl

theorem W2_main_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results <;> rfl

theorem W2_main_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results <;> rfl

theorem W2_main_arg13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results <;> rfl

theorem W2_main_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results <;> rfl

theorem W2_main_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results <;> rfl

theorem W2_main_arg15 (c : Dev nD) : W2 m ρ c (Proc.devRef .tc main_arg15) = m ((c : Thread nD τ).loc main_arg15) := by
  rw [W2_of_ne m ρ c main_arg15 (by decide)]
  show StableHlo.after hostOps0 (W0 m ρ c) (Proc.devRef .tc main_arg15) = _
  after_results <;> rfl

theorem W2_main_arg16 (c : Dev nD) : W2 m ρ c (Proc.devRef .tc main_arg16) = m ((c : Thread nD τ).loc main_arg16) := by
  rw [W2_of_ne m ρ c main_arg16 (by decide)]
  show StableHlo.after hostOps0 (W0 m ρ c) (Proc.devRef .tc main_arg16) = _
  after_results <;> rfl

theorem W2_main_v1 (c : Dev nD) : W2 m ρ c (Proc.devRef .tc main_v1) = W1 m ρ c (Proc.devRef .tc main_v1) :=
  W2_of_ne m ρ c main_v1 (by decide)

theorem W2_main_v3 (c : Dev nD) : W2 m ρ c (Proc.devRef .tc main_v3) = W1 m ρ c (Proc.devRef .tc main_v3) :=
  W2_of_ne m ρ c main_v3 (by decide)

theorem W4_main_arg9 (c : Dev nD) : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results
  exact W2_main_arg9 m ρ c

theorem W4_main_arg10 (c : Dev nD) : W4 m ρ c (Proc.devRef .tc main_arg10) = m ((c : Thread nD τ).loc main_arg10) := by
  rw [W4_of_ne m ρ c main_arg10 (by decide)]
  show StableHlo.after hostOps1 (W2 m ρ c) (Proc.devRef .tc main_arg10) = _
  after_results
  exact W2_main_arg10 m ρ c

theorem W4_main_arg11 (c : Dev nD) : W4 m ρ c (Proc.devRef .tc main_arg11) = m ((c : Thread nD τ).loc main_arg11) := by
  rw [W4_of_ne m ρ c main_arg11 (by decide)]
  show StableHlo.after hostOps1 (W2 m ρ c) (Proc.devRef .tc main_arg11) = _
  after_results
  exact W2_main_arg11 m ρ c

theorem W4_main_arg12 (c : Dev nD) : W4 m ρ c (Proc.devRef .tc main_arg12) = m ((c : Thread nD τ).loc main_arg12) := by
  rw [W4_of_ne m ρ c main_arg12 (by decide)]
  show StableHlo.after hostOps1 (W2 m ρ c) (Proc.devRef .tc main_arg12) = _
  after_results
  exact W2_main_arg12 m ρ c

theorem W4_main_arg13 (c : Dev nD) : W4 m ρ c (Proc.devRef .tc main_arg13) = m ((c : Thread nD τ).loc main_arg13) := by
  rw [W4_of_ne m ρ c main_arg13 (by decide)]
  show StableHlo.after hostOps1 (W2 m ρ c) (Proc.devRef .tc main_arg13) = _
  after_results
  exact W2_main_arg13 m ρ c

theorem W4_main_arg14 (c : Dev nD) : W4 m ρ c (Proc.devRef .tc main_arg14) = m ((c : Thread nD τ).loc main_arg14) := by
  rw [W4_of_ne m ρ c main_arg14 (by decide)]
  show StableHlo.after hostOps1 (W2 m ρ c) (Proc.devRef .tc main_arg14) = _
  after_results
  exact W2_main_arg14 m ρ c

theorem W4_main_arg2 (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results
  exact W2_main_arg2 m ρ c

theorem W4_main_arg15 (c : Dev nD) : W4 m ρ c (Proc.devRef .tc main_arg15) = m ((c : Thread nD τ).loc main_arg15) := by
  rw [W4_of_ne m ρ c main_arg15 (by decide)]
  show StableHlo.after hostOps1 (W2 m ρ c) (Proc.devRef .tc main_arg15) = _
  after_results
  exact W2_main_arg15 m ρ c

theorem W4_main_arg16 (c : Dev nD) : W4 m ρ c (Proc.devRef .tc main_arg16) = m ((c : Thread nD τ).loc main_arg16) := by
  rw [W4_of_ne m ρ c main_arg16 (by decide)]
  show StableHlo.after hostOps1 (W2 m ρ c) (Proc.devRef .tc main_arg16) = _
  after_results
  exact W2_main_arg16 m ρ c

theorem W4_main_v1 (c : Dev nD) : W4 m ρ c (Proc.devRef .tc main_v1) = W1 m ρ c (Proc.devRef .tc main_v1) := by
  rw [W4_of_ne m ρ c main_v1 (by decide)]
  show StableHlo.after hostOps1 (W2 m ρ c) (Proc.devRef .tc main_v1) = _
  after_results
  exact W2_main_v1 m ρ c

theorem W4_main_v3 (c : Dev nD) : W4 m ρ c (Proc.devRef .tc main_v3) = W1 m ρ c (Proc.devRef .tc main_v3) := by
  rw [W4_of_ne m ρ c main_v3 (by decide)]
  show StableHlo.after hostOps1 (W2 m ρ c) (Proc.devRef .tc main_v3) = _
  after_results
  exact W2_main_v3 m ρ c

theorem W6_main_arg12 (c : Dev nD) : W6 m ρ c (Proc.devRef .tc main_arg12) = m ((c : Thread nD τ).loc main_arg12) := by
  rw [W6_of_ne m ρ c main_arg12 (by decide)]
  show StableHlo.after hostOps2 (W4 m ρ c) (Proc.devRef .tc main_arg12) = _
  after_results
  exact W4_main_arg12 m ρ c

theorem W6_main_arg13 (c : Dev nD) : W6 m ρ c (Proc.devRef .tc main_arg13) = m ((c : Thread nD τ).loc main_arg13) := by
  rw [W6_of_ne m ρ c main_arg13 (by decide)]
  show StableHlo.after hostOps2 (W4 m ρ c) (Proc.devRef .tc main_arg13) = _
  after_results
  exact W4_main_arg13 m ρ c

theorem W6_main_arg14 (c : Dev nD) : W6 m ρ c (Proc.devRef .tc main_arg14) = m ((c : Thread nD τ).loc main_arg14) := by
  rw [W6_of_ne m ρ c main_arg14 (by decide)]
  show StableHlo.after hostOps2 (W4 m ρ c) (Proc.devRef .tc main_arg14) = _
  after_results
  exact W4_main_arg14 m ρ c

theorem W6_main_arg2 (c : Dev nD) : W6 m ρ c (Proc.devRef .tc main_arg2) = m ((c : Thread nD τ).loc main_arg2) := by
  rw [W6_of_ne m ρ c main_arg2 (by decide)]
  show StableHlo.after hostOps2 (W4 m ρ c) (Proc.devRef .tc main_arg2) = _
  after_results
  exact W4_main_arg2 m ρ c

theorem W6_main_arg15 (c : Dev nD) : W6 m ρ c (Proc.devRef .tc main_arg15) = m ((c : Thread nD τ).loc main_arg15) := by
  rw [W6_of_ne m ρ c main_arg15 (by decide)]
  show StableHlo.after hostOps2 (W4 m ρ c) (Proc.devRef .tc main_arg15) = _
  after_results
  exact W4_main_arg15 m ρ c

theorem W6_main_arg16 (c : Dev nD) : W6 m ρ c (Proc.devRef .tc main_arg16) = m ((c : Thread nD τ).loc main_arg16) := by
  rw [W6_of_ne m ρ c main_arg16 (by decide)]
  show StableHlo.after hostOps2 (W4 m ρ c) (Proc.devRef .tc main_arg16) = _
  after_results
  exact W4_main_arg16 m ρ c

theorem W6_main_v1 (c : Dev nD) : W6 m ρ c (Proc.devRef .tc main_v1) = W1 m ρ c (Proc.devRef .tc main_v1) := by
  rw [W6_of_ne m ρ c main_v1 (by decide)]
  show StableHlo.after hostOps2 (W4 m ρ c) (Proc.devRef .tc main_v1) = _
  after_results
  exact W4_main_v1 m ρ c

theorem W6_main_v3 (c : Dev nD) : W6 m ρ c (Proc.devRef .tc main_v3) = W1 m ρ c (Proc.devRef .tc main_v3) := by
  rw [W6_of_ne m ρ c main_v3 (by decide)]
  show StableHlo.after hostOps2 (W4 m ρ c) (Proc.devRef .tc main_v3) = _
  after_results
  exact W4_main_v3 m ρ c

theorem W8_main_arg2 (c : Dev nD) : W8 m ρ c (Proc.devRef .tc main_arg2) = m ((c : Thread nD τ).loc main_arg2) := by
  rw [W8_of_ne m ρ c main_arg2 (by decide)]
  show StableHlo.after hostOps3 (W6 m ρ c) (Proc.devRef .tc main_arg2) = _
  after_results
  exact W6_main_arg2 m ρ c

theorem W8_main_arg15 (c : Dev nD) : W8 m ρ c (Proc.devRef .tc main_arg15) = m ((c : Thread nD τ).loc main_arg15) := by
  rw [W8_of_ne m ρ c main_arg15 (by decide)]
  show StableHlo.after hostOps3 (W6 m ρ c) (Proc.devRef .tc main_arg15) = _
  after_results
  exact W6_main_arg15 m ρ c

theorem W8_main_arg16 (c : Dev nD) : W8 m ρ c (Proc.devRef .tc main_arg16) = m ((c : Thread nD τ).loc main_arg16) := by
  rw [W8_of_ne m ρ c main_arg16 (by decide)]
  show StableHlo.after hostOps3 (W6 m ρ c) (Proc.devRef .tc main_arg16) = _
  after_results
  exact W6_main_arg16 m ρ c

end Cert.KernelIdeal.Stages

end
-- ==== Proof.Stage1.lean ====
/-
  Layer 1 of the idealized kernel program: the arrays region 1 finds when it is entered, and the array it leaves.

  The stretch of host operations before the region gathers the node features along the edge sources, adds them up at
  the edge targets, transposes the layer's two weight matrices and reshapes its bias vector to one row.  These are the
  reference's own operations on the same operands, so each array the region finds is the reference's value of that
  stage; the region leaves the layer function of them (Region1), which is the reference's layer (RefLayers).
-/
import proofs.«165000_j48455821033981_1_alg».proof.Proof.Gen.KernelIdeal.Frame
import proofs.«165000_j48455821033981_1_alg».proof.Proof.Gen.ReferenceIdeal.Read
import proofs.«165000_j48455821033981_1_alg».proof.Proof.Region1
import proofs.«165000_j48455821033981_1_alg».proof.Proof.RefLayers
import proofs.«165000_j48455821033981_1_alg».proof.Proof.Stage0
import proofs.«165000_j48455821033981_1_alg».proof.Proof.Keep
import Idealize.ShloMosaic.Lib.ValueIdx
import Idealize.ShloMosaic.Lib.Pipeline.Value
import Idealize.ShloMosaic.Lib.StableHlo.Run

set_option maxHeartbeats 4000000
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read

/-- The aggregated features region 1 finds. -/
theorem agg1 (c : Dev nD) : V3 m ρ c main_v27 = val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v27) = _
  after_results
  rw [W2_main_v1, W2_main_v3, src, dst, h1]
  rfl

/-- The node features region 1 finds. -/
theorem hin1 (c : Dev nD) : V3 m ρ c main_v17 = val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v17) = _
  after_results
  exact h1 m ρ c

/-- The first transposed weight matrix. -/
theorem wT1 (c : Dev nD) : V3 m ρ c main_v28 = val_main_v33 (F := Ideal) (m ((c : Thread nD τ).loc main_arg6)) := by
  show StableHlo.after hostOps1 (W2 m ρ c) (Proc.devRef .tc main_v28) = _
  after_results
  rw [W2_main_arg6]
  rfl

/-- The second transposed weight matrix. -/
theorem uT1 (c : Dev nD) : V3 m ρ c main_v29 = val_main_v38 (F := Ideal) (m ((c : Thread nD τ).loc main_arg8)) := by
  show StableHlo.after hostOps1 (W2 m ρ c) (Proc.devRef .tc main_v29) = _
  after_results
  rw [W2_main_arg8]
  rfl

/-- The bias row: the bias vector reshaped to one row, read along that row. -/
theorem bias1 (c : Dev nD) :
    (fun j : Fin 128 => V3 m ρ c main_v30 (ix2 (0 : Fin 1) j)) = Cert.ReferenceIdeal.Layers.at1 (m ((c : Thread nD τ).loc main_arg7)) := by
  funext j
  show StableHlo.after hostOps1 (W2 m ρ c) (Proc.devRef .tc main_v30) (ix2 (0 : Fin 1) j) = _
  after_results
  rw [W2_main_arg7]
  exact (shapeCast_addUnit_apply ![128] _ _ (ix2 (0 : Fin 1) j)).trans
    (congrArg _ (funext fun a => match a with | ⟨0, _⟩ => rfl))

/-- THE NODE FEATURES AFTER LAYER 1: the reference's. -/
theorem h2 (c : Dev nD) : W4 m ρ c (Proc.devRef .tc main_v31) = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Cert.KernelIdeal.Region1.array_eq (V3 m ρ) c).trans ?_)
  show Cert.GraphLayer.layer (R := 50000) (V3 m ρ c main_v27) (V3 m ρ c main_v17) (V3 m ρ c main_v28)
    (V3 m ρ c main_v29) (fun j : Fin 128 => V3 m ρ c main_v30 (ix2 (0 : Fin 1) j)) = _
  rw [agg1, hin1, wT1, uT1, bias1]
  exact (Cert.ReferenceIdeal.Layers.layer1 _ _ _ _ _ _ _ _).symm

end Cert.KernelIdeal.Stages

end
-- ==== Proof.Stage2.lean ====
/-
  Layer 2 of the idealized kernel program: the arrays region 2 finds when it is entered, and the array it leaves.

  The stretch of host operations before the region gathers the node features along the edge sources, adds them up at
  the edge targets, transposes the layer's two weight matrices and reshapes its bias vector to one row.  These are the
  reference's own operations on the same operands, so each array the region finds is the reference's value of that
  stage; the region leaves the layer function of them (Region2), which is the reference's layer (RefLayers).
-/
import proofs.«165000_j48455821033981_1_alg».proof.Proof.Gen.KernelIdeal.Frame
import proofs.«165000_j48455821033981_1_alg».proof.Proof.Gen.ReferenceIdeal.Read
import proofs.«165000_j48455821033981_1_alg».proof.Proof.Region2
import proofs.«165000_j48455821033981_1_alg».proof.Proof.RefLayers
import proofs.«165000_j48455821033981_1_alg».proof.Proof.Stage1
import proofs.«165000_j48455821033981_1_alg».proof.Proof.Keep
import Idealize.ShloMosaic.Lib.ValueIdx
import Idealize.ShloMosaic.Lib.Pipeline.Value
import Idealize.ShloMosaic.Lib.StableHlo.Run

set_option maxHeartbeats 4000000
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read

/-- The aggregated features region 2 finds. -/
theorem agg2 (c : Dev nD) : V5 m ρ c main_v41 = val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v41) = _
  after_results
  rw [W4_main_v1, W4_main_v3, src, dst, h2]
  rfl

/-- The node features region 2 finds. -/
theorem hin2 (c : Dev nD) : V5 m ρ c main_v31 = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v31) = _
  after_results
  exact h2 m ρ c

/-- The first transposed weight matrix. -/
theorem wT2 (c : Dev nD) : V5 m ρ c main_v42 = val_main_v52 (F := Ideal) (m ((c : Thread nD τ).loc main_arg9)) := by
  show StableHlo.after hostOps2 (W4 m ρ c) (Proc.devRef .tc main_v42) = _
  after_results
  rw [W4_main_arg9]
  rfl

/-- The second transposed weight matrix. -/
theorem uT2 (c : Dev nD) : V5 m ρ c main_v43 = val_main_v57 (F := Ideal) (m ((c : Thread nD τ).loc main_arg11)) := by
  show StableHlo.after hostOps2 (W4 m ρ c) (Proc.devRef .tc main_v43) = _
  after_results
  rw [W4_main_arg11]
  rfl

/-- The bias row: the bias vector reshaped to one row, read along that row. -/
theorem bias2 (c : Dev nD) :
    (fun j : Fin 128 => V5 m ρ c main_v44 (ix2 (0 : Fin 1) j)) = Cert.ReferenceIdeal.Layers.at1 (m ((c : Thread nD τ).loc main_arg10)) := by
  funext j
  show StableHlo.after hostOps2 (W4 m ρ c) (Proc.devRef .tc main_v44) (ix2 (0 : Fin 1) j) = _
  after_results
  rw [W4_main_arg10]
  exact (shapeCast_addUnit_apply ![128] _ _ (ix2 (0 : Fin 1) j)).trans
    (congrArg _ (funext fun a => match a with | ⟨0, _⟩ => rfl))

/-- THE NODE FEATURES AFTER LAYER 2: the reference's. -/
theorem h3 (c : Dev nD) : W6 m ρ c (Proc.devRef .tc main_v45) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Cert.KernelIdeal.Region2.array_eq (V5 m ρ) c).trans ?_)
  show Cert.GraphLayer.layer (R := 50000) (V5 m ρ c main_v41) (V5 m ρ c main_v31) (V5 m ρ c main_v42)
    (V5 m ρ c main_v43) (fun j : Fin 128 => V5 m ρ c main_v44 (ix2 (0 : Fin 1) j)) = _
  rw [agg2, hin2, wT2, uT2, bias2]
  exact (Cert.ReferenceIdeal.Layers.layer2 _ _ _ _ _ _ _ _ _ _ _).symm

end Cert.KernelIdeal.Stages

end
-- ==== Proof.Stage3.lean ====
/-
  Layer 3 of the idealized kernel program: the arrays region 3 finds when it is entered, and the array it leaves.

  The stretch of host operations before the region gathers the node features along the edge sources, adds them up at
  the edge targets, transposes the layer's two weight matrices and reshapes its bias vector to one row.  These are the
  reference's own operations on the same operands, so each array the region finds is the reference's value of that
  stage; the region leaves the layer function of them (Region3), which is the reference's layer (RefLayers).
-/
import proofs.«165000_j48455821033981_1_alg».proof.Proof.Gen.KernelIdeal.Frame
import proofs.«165000_j48455821033981_1_alg».proof.Proof.Gen.ReferenceIdeal.Read
import proofs.«165000_j48455821033981_1_alg».proof.Proof.Region3
import proofs.«165000_j48455821033981_1_alg».proof.Proof.RefLayers
import proofs.«165000_j48455821033981_1_alg».proof.Proof.Stage2
import proofs.«165000_j48455821033981_1_alg».proof.Proof.Keep
import Idealize.ShloMosaic.Lib.ValueIdx
import Idealize.ShloMosaic.Lib.Pipeline.Value
import Idealize.ShloMosaic.Lib.StableHlo.Run

set_option maxHeartbeats 4000000
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read

/-- The aggregated features region 3 finds. -/
theorem agg3 (c : Dev nD) : V7 m ρ c main_v55 = val_main_v70 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v55) = _
  after_results
  rw [W6_main_v1, W6_main_v3, src, dst, h3]
  rfl

/-- The node features region 3 finds. -/
theorem hin3 (c : Dev nD) : V7 m ρ c main_v45 = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v45) = _
  after_results
  exact h3 m ρ c

/-- The first transposed weight matrix. -/
theorem wT3 (c : Dev nD) : V7 m ρ c main_v56 = val_main_v71 (F := Ideal) (m ((c : Thread nD τ).loc main_arg12)) := by
  show StableHlo.after hostOps3 (W6 m ρ c) (Proc.devRef .tc main_v56) = _
  after_results
  rw [W6_main_arg12]
  rfl

/-- The second transposed weight matrix. -/
theorem uT3 (c : Dev nD) : V7 m ρ c main_v57 = val_main_v76 (F := Ideal) (m ((c : Thread nD τ).loc main_arg14)) := by
  show StableHlo.after hostOps3 (W6 m ρ c) (Proc.devRef .tc main_v57) = _
  after_results
  rw [W6_main_arg14]
  rfl

/-- The bias row: the bias vector reshaped to one row, read along that row. -/
theorem bias3 (c : Dev nD) :
    (fun j : Fin 128 => V7 m ρ c main_v58 (ix2 (0 : Fin 1) j)) = Cert.ReferenceIdeal.Layers.at1 (m ((c : Thread nD τ).loc main_arg13)) := by
  funext j
  show StableHlo.after hostOps3 (W6 m ρ c) (Proc.devRef .tc main_v58) (ix2 (0 : Fin 1) j) = _
  after_results
  rw [W6_main_arg13]
  exact (shapeCast_addUnit_apply ![128] _ _ (ix2 (0 : Fin 1) j)).trans
    (congrArg _ (funext fun a => match a with | ⟨0, _⟩ => rfl))

/-- THE NODE FEATURES AFTER LAYER 3: the reference's. -/
theorem h4 (c : Dev nD) : W8 m ρ c (Proc.devRef .tc main_v59) = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 5).trans ((Cert.KernelIdeal.Region3.array_eq (V7 m ρ) c).trans ?_)
  show Cert.GraphLayer.layer (R := 50000) (V7 m ρ c main_v55) (V7 m ρ c main_v45) (V7 m ρ c main_v56)
    (V7 m ρ c main_v57) (fun j : Fin 128 => V7 m ρ c main_v58 (ix2 (0 : Fin 1) j)) = _
  rw [agg3, hin3, wT3, uT3, bias3]
  exact (Cert.ReferenceIdeal.Layers.layer3 _ _ _ _ _ _ _ _ _ _ _ _ _ _).symm

end Cert.KernelIdeal.Stages

end
-- ==== Proof.Tail.lean ====
/-
  The result of the idealized kernel program.

  After the fourth region the last stretch of host operations pools the node features per graph (a sum per graph
  divided by the number of its nodes, at least one) and applies the final linear map.  These are the reference's own
  operations, on node features already shown to be the reference's, so the result buffer ends at the reference's
  value of its result.
-/
import proofs.«165000_j48455821033981_1_alg».proof.Proof.Stage3
import Idealize.ShloMosaic.Lib.ValueIdx
import Idealize.ShloMosaic.Lib.Pipeline.Value
import Idealize.ShloMosaic.Lib.StableHlo.Run

set_option maxHeartbeats 4000000
set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read

/-- THE RESULT at the last boundary: the reference's result as a function of the arguments. -/
theorem result (c : Dev nD) :
    W9 m ρ c (Proc.devRef .tc main_v75) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps4 (W8 m ρ c) (Proc.devRef .tc main_v75) = _
  after_results
  rw [h4, W8_main_arg2, W8_main_arg15, W8_main_arg16]
  rfl

end Cert.KernelIdeal.Stages

end
-- ==== Proof.lean ====
/-
  The five claims of this certificate.

  The program is a four-layer graph convolution network over 50000 nodes and 800000 edges, followed by a mean over
  each graph's nodes and a linear map.  A layer is
      h ↦ max( agg(h) · Wrelᵀ + b + h · Wrootᵀ , 0 ),
  where agg(h) sums, for every node, the features of the sources of the edges that end in it.  The kernel program
  computes the gather and the sum, the transposes, the pooling and the last linear map on the host, exactly as the
  reference does, and only the dense part of each layer in a tiled region: two products into zero accumulators, their
  sum, then the bias, then the maximum with zero, 2000 rows at a time.  The reference adds the bias to the first
  product before adding the second.  Over the extended reals the two orders of the three-term sum agree (addition is
  commutative and associative, also at the infinities), a narrowing of the float format is the identity, and a
  product into a zero accumulator is the plain sum of products; so each region leaves the reference's layer, and by
  four such steps and the common last stretch the two results are the same function of the arguments.  The
  precondition is not used.

  Frames: the two kernel programs' frames are the generated ones; the reference's frame is its generated run with the
  result dropped.  No rewrite was applied by the idealization, so the preservation claim is trivial.
-/
import proofs.«165000_j48455821033981_1_alg».proof.Defs
import proofs.«165000_j48455821033981_1_alg».proof.Proof.Gen.Kernel
import proofs.«165000_j48455821033981_1_alg».proof.Proof.Gen.Kernel.Skeleton
import proofs.«165000_j48455821033981_1_alg».proof.Proof.Gen.Kernel.Launch
import proofs.«165000_j48455821033981_1_alg».proof.Proof.Gen.Kernel.Points
import proofs.«165000_j48455821033981_1_alg».proof.Proof.Gen.Kernel.Frame
import proofs.«165000_j48455821033981_1_alg».proof.Proof.Gen.KernelIdeal
import proofs.«165000_j48455821033981_1_alg».proof.Proof.Gen.KernelIdeal.Skeleton
import proofs.«165000_j48455821033981_1_alg».proof.Proof.Gen.KernelIdeal.Launch
import proofs.«165000_j48455821033981_1_alg».proof.Proof.Gen.KernelIdeal.Points
import proofs.«165000_j48455821033981_1_alg».proof.Proof.Gen.KernelIdeal.Frame
import proofs.«165000_j48455821033981_1_alg».proof.Proof.Gen.ReferenceIdeal
import proofs.«165000_j48455821033981_1_alg».proof.Proof.Gen.Pre_finite_inputs
import proofs.«165000_j48455821033981_1_alg».proof.Proof.Gen.ReferenceIdeal.Run
import proofs.«165000_j48455821033981_1_alg».proof.Proof.Gen.ReferenceIdeal.Read
import proofs.«165000_j48455821033981_1_alg».proof.Proof.KernelRun
import proofs.«165000_j48455821033981_1_alg».proof.Proof.Tail
import Idealize.ShloMosaic.Adequacy
import Idealize.ShloMosaic.Init

noncomputable section

namespace Cert.Proof

open Idealize.ShloMosaic Idealize.SL.Sem

/-- The two idealized programs, run from memories that agree on the arguments, end with the same result: the kernel
    program's result buffer ends at the last boundary's contents, which is the reference's result function of the
    arguments; the reference's run ends at that function of its own arguments. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.KernelIdeal.Gen.W9 m ρ c (Proc.devRef .tc Cert.KernelIdeal.main_v75),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v95_eq, a0, a1, a2, a3, a4, a5, a6, a7, a8, a9, a10, a11, a12, a13, a14, a15, a16]
  exact (Cert.KernelIdeal.Stages.result m ρ c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
